-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v24) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part2 {F : FTy → Type} [FloatOps F] (main_arg7 : FVec F S8192 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  main_v38

def fn_part1 {F : FTy → Type} [FloatOps F] (main_arg4 : FVec F S4096x2048 .f32) (main_arg5 : FVec F S8192x2048 .f32) (main_arg6 : FVec F S8192 .f32) (main_arg7 : FVec F S8192 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S4096x2048 .f32) (main_arg5 : FVec F S8192x2048 .f32) (main_arg6 : FVec F S8192 .f32) (main_arg7 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S1x8192 : Shape := ⟨2, ![1, 8192]⟩
abbrev S64x2048 : Shape := ⟨2, ![64, 2048]⟩
abbrev S64x8192 : Shape := ⟨2, ![64, 8192]⟩
abbrev S1x2048 : Shape := ⟨2, ![1, 2048]⟩

abbrev nBuf : Space → Nat
  | .hbm => 17
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S8192x2048, .f32⟩
  | .hbm, ⟨6, _⟩ => ⟨S8192, .f32⟩
  | .hbm, ⟨7, _⟩ => ⟨S8192, .f32⟩
  | .hbm, ⟨8, _⟩ => ⟨S4096x2048, .bf16⟩
  | .hbm, ⟨9, _⟩ => ⟨S2048x8192, .f32⟩
  | .hbm, ⟨10, _⟩ => ⟨S2048x8192, .bf16⟩
  | .hbm, ⟨11, _⟩ => ⟨S1x8192, .f32⟩
  | .hbm, ⟨12, _⟩ => ⟨S1x8192, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .local _ .vmem, ⟨0, _⟩ => ⟨S64x2048, .bf16⟩
  | .local _ .vmem, ⟨1, _⟩ => ⟨S64x2048, .bf16⟩
  | .local _ .vmem, ⟨2, _⟩ => ⟨S2048x8192, .bf16⟩
  | .local _ .vmem, ⟨3, _⟩ => ⟨S1x8192, .f32⟩
  | .local _ .vmem, ⟨4, _⟩ => ⟨S1x8192, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S64x2048, .f32⟩
  | .local _ .vmem, ⟨19, _⟩ => ⟨S64x2048, .f32⟩
  | .local _ .vmem, ⟨20, _⟩ => ⟨S64x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  transposes_S8192x2048_S2048x8192_1_0 : S8192x2048.Transposes [1, 0] S2048x8192
  shapeCasts_S8192_S1x8192 : S8192.ShapeCasts S1x8192
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x8192_S2048x8192_0_0 : ∀ a, (![0, 0] : Fin 2 → Nat) a + S2048x8192.size a ≤ S2048x8192.size a
  h_S2048x8192 : 0 < S2048x8192.numel
  shapeCasts_S2048x8192_S2048x8192 : S2048x8192.ShapeCasts S2048x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  slices_S64x8192_o0_0_S64x2048 : S64x8192.Slices ![0, 0] S64x2048
  slices_S1x8192_o0_0_S1x2048 : S1x8192.Slices ![0, 0] S1x2048
  broadcasts_S1x2048_S64x2048 : S1x2048.Broadcasts S64x2048
  slices_S64x8192_o0_2048_S64x2048 : S64x8192.Slices ![0, 2048] S64x2048
  slices_S1x8192_o0_2048_S1x2048 : S1x8192.Slices ![0, 2048] S1x2048
  slices_S64x8192_o0_4096_S64x2048 : S64x8192.Slices ![0, 4096] S64x2048
  slices_S1x8192_o0_4096_S1x2048 : S1x8192.Slices ![0, 4096] S1x2048
  slices_S64x8192_o0_6144_S64x2048 : S64x8192.Slices ![0, 6144] S64x2048
  slices_S1x8192_o0_6144_S1x2048 : S1x8192.Slices ![0, 6144] S1x2048
  dot_S64x2048_S2048x8192_S64x8192_1_0_0_1_n_n_wf : DotDims.WF S64x2048 S2048x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x2048.size a ≤ S4096x2048.size a
  hwx0_0 : ∀ i : grid0.Coords, EltTy.bits .bf16 = 32 ∨ (Rect.block (s := S4096x2048) S64x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x8192.size a ≤ S2048x8192.size a
  hwx0_1 : ∀ i : grid0.Coords, EltTy.bits .bf16 = 32 ∨ (Rect.block (s := S2048x8192) S2048x8192.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S4096x2048.size a
  hwx0_4 : ∀ i : grid0.Coords, EltTy.bits .f32 = 32 ∨ (Rect.block (s := S4096x2048) S64x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x2048.size a ≤ S4096x2048.size a
  hwx0_5 : ∀ i : grid0.Coords, EltTy.bits .f32 = 32 ∨ (Rect.block (s := S4096x2048) S64x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x2048.size a ≤ S4096x2048.size a
  hwx0_6 : ∀ i : grid0.Coords, EltTy.bits .f32 = 32 ∨ (Rect.block (s := S4096x2048) S64x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x2048.size a ≤ S4096x2048.size a
  hwx0_7 : ∀ i : grid0.Coords, EltTy.bits .f32 = 32 ∨ (Rect.block (s := S4096x2048) S64x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x2048.size a ≤ S4096x2048.size a
  hwx0_8 : ∀ i : grid0.Coords, EltTy.bits .f32 = 32 ∨ (Rect.block (s := S4096x2048) S64x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x2048.size a ≤ S4096x2048.size a
  hwx0_9 : ∀ i : grid0.Coords, EltTy.bits .f32 = 32 ∨ (Rect.block (s := S4096x2048) S64x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x2048.size a ≤ S4096x2048.size a
  hwx0_10 : ∀ i : grid0.Coords, EltTy.bits .f32 = 32 ∨ (Rect.block (s := S4096x2048) S64x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x2048.size a ≤ S4096x2048.size a
  hwx0_11 : ∀ i : grid0.Coords, EltTy.bits .f32 = 32 ∨ (Rect.block (s := S4096x2048) S64x2048.size (cc0_transform_11 i) (hinb0_11 i)).WholeWords (EltTy.packing .f32)

variable [Facts₀]

def dot_S64x2048_S2048x8192_S64x8192_1_0_0_1_n_n : DotDims S64x2048 S2048x8192 S64x8192 where
  lhsContracting := [1]
  rhsContracting := [0]
  lhsNonContracting := [0]
  rhsNonContracting := [1]
  lhsBatch := []
  rhsBatch := []
  wf := dot_S64x2048_S2048x8192_S64x8192_1_0_0_1_n_n_wf

abbrev win0_0 : Pipeline.Window sig grid0 :=
  Pipeline.Window.ofSpec (Memref.whole main_v0) S64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S64x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S64x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S64x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S64x2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S64x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v5_2) S64x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5_3) S64x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S1x4096x1x2048 : Shape := ⟨4, ![1, 4096, 1, 2048]⟩
abbrev S1x4096x4x2048 : Shape := ⟨4, ![1, 4096, 4, 2048]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S8192x2048, .f32⟩
  | .hbm, ⟨6, _⟩ => ⟨S8192, .f32⟩
  | .hbm, ⟨7, _⟩ => ⟨S8192, .f32⟩
  | .hbm, ⟨8, _⟩ => ⟨S2048x8192, .f32⟩
  | .hbm, ⟨9, _⟩ => ⟨S4096x8192, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S1x4096x1x2048, .f32⟩
  | .hbm, ⟨14, _⟩ => ⟨S1x4096x4x2048, .f32⟩
  | .hbm, ⟨15, _⟩ => ⟨S4096x8192, .f32⟩
  | .hbm, ⟨16, _⟩ => ⟨S1x8192, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  shapeCasts_S4096x2048_S1x4096x1x2048 : S4096x2048.ShapeCasts S1x4096x1x2048
  bcast_S1x4096x1x2048_S1x4096x4x2048_0_1_2_3 : S1x4096x1x2048.BroadcastsInDim S1x4096x4x2048 (![0, 1, 2, 3] : Fin 4 → Fin S1x4096x4x2048.rank)
  shapeCasts_S1x4096x4x2048_S4096x8192 : S1x4096x4x2048.ShapeCasts S4096x8192
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.Cell.lean ====
/-
  One cell of the sLSTM step, on the extended reals, with no shapes in sight.

  At batch row `b` and hidden column `q` the step depends on four pre-activations — one per gate (z, i, f, o), each the row
  `b` of the input against one column of the transposed weights, plus that column's bias, plus that column's recurrent
  weight times the previous hidden value at `(b, q)` — and on the previous stabilizer, cell and normalizer values at
  `(b, q)`. Everything after the pre-activations is scalar arithmetic:

    m' = max (f + m) i            f_t = exp ((f + m) - m')        i_t = exp (i - m')
    c' = f_t · c + i_t · tanh z    n' = f_t · n + i_t              h' = σ(o) · (c' / (|n'| + ε))

  with σ the logistic function, which on the extended reals IS `1 / (1 + exp (-x))` (so a program that spells the
  quotient out and a program that uses the one operation compute the same value, infinities included), and ε the
  single-precision word 0x358637BD both programs carry.
-/
import Idealize.ShloMosaic.PureOps.Ideal
import Idealize.ShloMosaic.PureOps.Ideal.Laws

noncomputable section

namespace Cert.SLstm

open Idealize.ShloMosaic

/-- One gate's pre-activation at one (row, column): `Σ_k x[b,k] · Wᵀ[k,j] + bias[j] + r[j] · h[b,q]`, from the row of `x`,
    the column `j` of the transposed weights, and the three scalars. Grouped as both programs group it. -/
def preAct (xr wc : Fin 2048 → EReal) (wbv rv hv : EReal) : EReal :=
  ((∑ k : Fin 2048, xr k * wc k) + wbv) + rv * hv

/-- The new stabilizer: the larger of the forget path `f + m` and the input pre-activation. -/
def mNew (ip fp mv : EReal) : EReal := max (fp + mv) ip

/-- The stabilized forget gate `exp ((f + m) - m')`. -/
def fGate (ip fp mv : EReal) : EReal := Ideal.exp ((fp + mv) - mNew ip fp mv)

/-- The stabilized input gate `exp (i - m')`. -/
def iGate (ip fp mv : EReal) : EReal := Ideal.exp (ip - mNew ip fp mv)

/-- The new cell value `f_t · c + i_t · tanh z`. -/
def cNew (zp ip fp mv cv : EReal) : EReal := fGate ip fp mv * cv + iGate ip fp mv * Ideal.tanh zp

/-- The new normalizer `f_t · n + i_t`. -/
def nNew (ip fp mv nv : EReal) : EReal := fGate ip fp mv * nv + iGate ip fp mv

/-- The word both programs add to `|n'|` before dividing (single precision, nearest to one millionth). -/
abbrev eps : EReal := Ideal.ofBits .f32 0x358637BD#32

/-- The new hidden value `σ(o) · (c' / (|n'| + ε))`. -/
def hNew (zp ip fp op mv cv nv : EReal) : EReal :=
  Ideal.logistic op * Ideal.div (cNew zp ip fp mv cv) (FloatOps.absf (F := Ideal) (φ := .f32) (nNew ip fp mv nv) + eps)

/-- The single-precision word of one is the number one. -/
theorem one_word : Ideal.ofBits .f32 0x3F800000#32 = (1 : EReal) := by
  simp [Ideal.ofBits, Ideal.ieee, -EReal.coe_mul]; norm_num

/-- The logistic function spelt as a quotient, `1 / (1 + exp (-x))` with both ones as single-precision words, is the
    logistic function: its definition on the extended reals is that quotient. -/
theorem logistic_spelt (x : EReal) :
    Ideal.div (Ideal.ofBits .f32 0x3F800000#32) (Ideal.ofBits .f32 0x3F800000#32 + Ideal.exp (-x)) = Ideal.logistic x := by
  rw [one_word]; rfl

end Cert.SLstm

end
-- ==== Proof.KernelCell.lean ====
/-
  What one grid point of the kernel computes, as the scalar cell functions of the blocks it loaded.

  The body multiplies the 64 × 2048 block of `x` by the whole 2048 × 8192 transposed weight matrix into a zero
  accumulator — at the extended reals a plain sum over the contracted axis — and every later value is pointwise. Each
  gate's pre-activation is the same little term: the product at (row, column + gate offset), plus the bias row there,
  plus the recurrent row there times the hidden block at (row, column).
-/
import proofs.«168680_j91147795956279_2_alg».proof.Proof.KernelIdealValueP
import proofs.«168680_j91147795956279_2_alg».proof.Proof.Cell
import Idealize.ShloMosaic.Lib.ValueIdx
import Idealize.ShloMosaic.Lib.Pipeline.Value
import Idealize.ShloMosaic.PureOps.Ideal.Laws

noncomputable section

namespace Cert.KernelIdeal.Block

open Cert.KernelIdeal Cert.KernelIdeal.Gen Cert.KernelIdeal.ValueP Cert.SLstm Idealize.ShloMosaic Idealize.ShloMosaic.TcCoe

/-- The entry of the `x` block the product at `i` meets at contraction index `k`: (row of `i`, `k`). -/
abbrev lrow (i : S64x8192.Idx) (k : Fin 2048) : S64x2048.Idx := fun a => match a with
  | ⟨0, _⟩ => ⟨(i 0).val, (i 0).isLt⟩
  | ⟨1, _⟩ => ⟨k.val, k.isLt⟩
/-- The entry of the transposed weights it meets there: (`k`, column of `i`). -/
abbrev rcol (i : S64x8192.Idx) (k : Fin 2048) : S2048x8192.Idx := fun a => match a with
  | ⟨0, _⟩ => ⟨k.val, k.isLt⟩
  | ⟨1, _⟩ => ⟨(i 1).val, (i 1).isLt⟩

theorem lhs0 (i : S64x8192.Idx) (q : dot_S64x2048_S2048x8192_S64x8192_1_0_0_1_n_n.contr.Idx) :
    (dot_S64x2048_S2048x8192_S64x8192_1_0_0_1_n_n.lhsIdx i q 0).val = (i 0).val := by
  unfold DotDims.lhsIdx
  rw [dif_neg (show ¬(0 : Fin S64x2048.rank) ∈ dot_S64x2048_S2048x8192_S64x8192_1_0_0_1_n_n.lhsBatch by decide), dif_pos (show (0 : Fin S64x2048.rank) ∈ dot_S64x2048_S2048x8192_S64x8192_1_0_0_1_n_n.lhsNonContracting by decide)]
  rfl
theorem lhs1 (i : S64x8192.Idx) (q : dot_S64x2048_S2048x8192_S64x8192_1_0_0_1_n_n.contr.Idx) :
    (dot_S64x2048_S2048x8192_S64x8192_1_0_0_1_n_n.lhsIdx i q 1).val = (q ⟨0, by decide⟩).val :=
  dot_S64x2048_S2048x8192_S64x8192_1_0_0_1_n_n.lhsIdx_val_of_single rfl i q
theorem rhs0 (i : S64x8192.Idx) (q : dot_S64x2048_S2048x8192_S64x8192_1_0_0_1_n_n.contr.Idx) :
    (dot_S64x2048_S2048x8192_S64x8192_1_0_0_1_n_n.rhsIdx i q 0).val = (q ⟨0, by decide⟩).val :=
  dot_S64x2048_S2048x8192_S64x8192_1_0_0_1_n_n.rhsIdx_val_of_single rfl i q
theorem rhs1 (i : S64x8192.Idx) (q : dot_S64x2048_S2048x8192_S64x8192_1_0_0_1_n_n.contr.Idx) :
    (dot_S64x2048_S2048x8192_S64x8192_1_0_0_1_n_n.rhsIdx i q 1).val = (i 1).val := by
  unfold DotDims.rhsIdx
  rw [dif_neg (show ¬(1 : Fin S2048x8192.rank) ∈ dot_S64x2048_S2048x8192_S64x8192_1_0_0_1_n_n.rhsBatch by decide), dif_pos (show (1 : Fin S2048x8192.rank) ∈ dot_S64x2048_S2048x8192_S64x8192_1_0_0_1_n_n.rhsNonContracting by decide)]
  rfl

/-- The body's matrix product into a zero accumulator, read at an index: the sum over the contracted axis. -/
theorem matmul_read (P0 : Vec Ideal S64x2048 .bf16) (P1 : Vec Ideal S2048x8192 .bf16) (i : S64x8192.Idx) :
    k0_pay7 (F := Ideal) P0 P1 i = ∑ k : Fin 2048, P0 (lrow i k) * P1 (rcol i k) := by
  unfold k0_pay7
  show FloatOps.matmul dot_S64x2048_S2048x8192_S64x8192_1_0_0_1_n_n none (shapeCast S64x2048 P0 shapeCasts_S64x2048_S64x2048)
    (shapeCast S2048x8192 P1 shapeCasts_S2048x8192_S2048x8192) (constant (F := Ideal) S64x8192 .f32 0x00000000#32) i = _
  rw [shapeCast_self, shapeCast_self, Ideal.matmul_constant_zero_apply,
    ← Equiv.sum_comp (ValueIdx.contrEquiv1 dot_S64x2048_S2048x8192_S64x8192_1_0_0_1_n_n 2048 rfl rfl).symm]
  refine Finset.sum_congr rfl fun k _ => ?_
  have hk := ValueIdx.contrEquiv1_symm_val dot_S64x2048_S2048x8192_S64x8192_1_0_0_1_n_n 2048 rfl rfl k
  have el : dot_S64x2048_S2048x8192_S64x8192_1_0_0_1_n_n.lhsIdx i ((ValueIdx.contrEquiv1 dot_S64x2048_S2048x8192_S64x8192_1_0_0_1_n_n 2048 rfl rfl).symm k) = lrow i k := funext fun a => Fin.ext (by
    match a with
    | ⟨0, _⟩ => exact lhs0 _ _
    | ⟨1, _⟩ => exact (lhs1 _ _).trans hk)
  have er : dot_S64x2048_S2048x8192_S64x8192_1_0_0_1_n_n.rhsIdx i ((ValueIdx.contrEquiv1 dot_S64x2048_S2048x8192_S64x8192_1_0_0_1_n_n 2048 rfl rfl).symm k) = rcol i k := funext fun a => Fin.ext (by
    match a with
    | ⟨0, _⟩ => exact (rhs0 _ _).trans hk
    | ⟨1, _⟩ => exact rhs1 _ _)
  rw [el, er]

/-- One gate's pre-activation as the body computes it, from the blocks. -/
theorem pre_read (P0 : Vec Ideal S64x2048 .bf16) (P1 : Vec Ideal S2048x8192 .bf16) (P2 P3 : Vec Ideal S1x8192 .f32)
    (P4 : Vec Ideal S64x2048 .f32) (iA : S64x8192.Idx) (iB iC : S1x8192.Idx) (iD : S64x2048.Idx) :
    FloatOps.addf (FloatOps.addf ((k0_pay7 (F := Ideal) P0 P1) iA) (P2 iB)) (FloatOps.mulf (P3 iC) (P4 iD))
      = preAct (fun k => P0 (lrow iA k)) (fun k => P1 (rcol iA k)) (P2 iB) (P3 iC) (P4 iD) := by
  rw [matmul_read]; rfl

end Cert.KernelIdeal.Block

end
-- ==== Proof.Step.lean ====
/-
  The sLSTM step as four whole-array functions of the eight argument arrays, index by index.

  Arrays are functions of their indices: `x, c, n, h, m : [4096, 2048]`, the weights `W : [8192, 2048]` (gate-major rows:
  z | i | f | o, 2048 rows each), bias and recurrent weights `wb, r : [8192]`. At batch row `b` and hidden column `q`,
  gate number `g` uses row `q + 2048·g` of `W` (column `q + 2048·g` of its transpose) and the same entry of `wb` and `r`;
  the previous hidden value enters every gate at `(b, q)` itself (tiling `h` four times along the columns and slicing the
  gate's quarter back out reads `h` where it was). The four results are the scalar cell functions of these.
-/
import proofs.«168680_j91147795956279_2_alg».proof.Proof.Cell
import Idealize.ShloMosaic.Lib.ValueIdx

noncomputable section

namespace Cert.SLstm

open Idealize.ShloMosaic Idealize.ShloMosaic.ValueIdx

/-- batch × hidden -/
abbrev ShBD : Shape := ⟨2, ![4096, 2048]⟩
/-- (4 · hidden) × input -/
abbrev ShW : Shape := ⟨2, ![8192, 2048]⟩
/-- 4 · hidden -/
abbrev ShV : Shape := ⟨1, ![8192]⟩

/-- The weight row (bias entry, recurrent entry) gate offset `off` uses at hidden column `q`. -/
abbrev gcol (off : Nat) (hoff : off + 2048 ≤ 8192) (q : Nat) (hq : q < 2048) : Fin 8192 := ⟨q + off, by omega⟩

/-- The pre-activation of the gate at offset `off` (0, 2048, 4096, 6144 for z, i, f, o) at index `i = (b, q)`. -/
def gate (x h : ShBD.Idx → EReal) (W : ShW.Idx → EReal) (wb r : ShV.Idx → EReal) (off : Nat) (hoff : off + 2048 ≤ 8192)
    (i : ShBD.Idx) : EReal :=
  preAct (fun k => x (ix2 (⟨(i 0).val, (i 0).isLt⟩ : Fin 4096) k))
    (fun k => W (ix2 (gcol off hoff (i 1).val (i 1).isLt) k))
    (wb (ix1 (gcol off hoff (i 1).val (i 1).isLt))) (r (ix1 (gcol off hoff (i 1).val (i 1).isLt))) (h i)

variable (x c n h m : ShBD.Idx → EReal) (W : ShW.Idx → EReal) (wb r : ShV.Idx → EReal)

/-- The new stabilizer array. -/
def stepM : ShBD.Idx → EReal := fun i =>
  mNew (gate x h W wb r 2048 (by omega) i) (gate x h W wb r 4096 (by omega) i) (m i)

/-- The new cell array. -/
def stepC : ShBD.Idx → EReal := fun i =>
  cNew (gate x h W wb r 0 (by omega) i) (gate x h W wb r 2048 (by omega) i) (gate x h W wb r 4096 (by omega) i) (m i) (c i)

/-- The new normalizer array. -/
def stepN : ShBD.Idx → EReal := fun i =>
  nNew (gate x h W wb r 2048 (by omega) i) (gate x h W wb r 4096 (by omega) i) (m i) (n i)

/-- The new hidden array. -/
def stepH : ShBD.Idx → EReal := fun i =>
  hNew (gate x h W wb r 0 (by omega) i) (gate x h W wb r 2048 (by omega) i) (gate x h W wb r 4096 (by omega) i)
    (gate x h W wb r 6144 (by omega) i) (m i) (c i) (n i)

end Cert.SLstm

end
-- ==== Proof.KernelStep.lean ====
/-
  One grid point of the kernel computes the four step functions on its 64 rows.

  Stated over variables: if each loaded block is the restriction of its array — the `x, h, m, c, n` blocks the rows
  `tb … tb + 63` of their arrays, the weight block the whole transposed weight matrix, the bias and recurrent blocks the
  whole rows — then what the body leaves in each output block at `(p, q)` is the step function of the arrays at
  `(tb + p, q)`. The product read at an index is the sum over the contracted axis; after that both sides are the same
  expression of the same array entries.
-/
import proofs.«168680_j91147795956279_2_alg».proof.Proof.KernelCell
import proofs.«168680_j91147795956279_2_alg».proof.Proof.Step

noncomputable section

namespace Cert.KernelIdeal.Block

open Cert.KernelIdeal Cert.KernelIdeal.Gen Cert.KernelIdeal.ValueP Cert.SLstm Idealize.ShloMosaic Idealize.ShloMosaic.TcCoe
open Idealize.ShloMosaic.ValueIdx

/-- Row `tb + p`, column `q` of a 4096 × 2048 array, from an index `(p, q)` of a 64 × 2048 block whose first row is `tb`. -/
abbrev rowAt (tb : Nat) (htb : tb + 64 ≤ 4096) (a : S64x2048.Idx) : ShBD.Idx :=
  ix2 (⟨tb + (a 0).val, by have h : (a 0).val < 64 := (a 0).isLt; omega⟩ : Fin 4096) (⟨(a 1).val, (a 1).isLt⟩ : Fin 2048)

variable (P0 : Vec Ideal S64x2048 .bf16) (P1 : Vec Ideal S2048x8192 .bf16) (P2 P3 : Vec Ideal S1x8192 .f32)
  (P4 P5 P6 P7 : Vec Ideal S64x2048 .f32)
  (x c n h m : ShBD.Idx → EReal) (W : ShW.Idx → EReal) (wb r : ShV.Idx → EReal)
  (tb : Nat) (htb : tb + 64 ≤ 4096)

/-- The new-stabilizer block. -/
theorem E11_step (y : S64x2048.Idx)
    (h0 : ∀ a : S64x2048.Idx, P0 a = x (rowAt tb htb a))
    (h1 : ∀ a : S2048x8192.Idx, P1 a = W (ix2 (⟨(a 1).val, (a 1).isLt⟩ : Fin 8192) (⟨(a 0).val, (a 0).isLt⟩ : Fin 2048)))
    (h2 : ∀ a : S1x8192.Idx, P2 a = wb (ix1 (⟨(a 1).val, (a 1).isLt⟩ : Fin 8192)))
    (h3 : ∀ a : S1x8192.Idx, P3 a = r (ix1 (⟨(a 1).val, (a 1).isLt⟩ : Fin 8192)))
    (h4 : ∀ a : S64x2048.Idx, P4 a = h (rowAt tb htb a))
    (h5 : ∀ a : S64x2048.Idx, P5 a = m (rowAt tb htb a)) :
    E11 (F := Ideal) P0 P1 P2 P3 P4 P5 y = stepM x h m W wb r (rowAt tb htb y) := by
  simp only [E11, matmul_read, h0, h1, h2, h3, h4, h5]
  rfl

/-- The new-cell block. -/
theorem E9_step (y : S64x2048.Idx)
    (h0 : ∀ a : S64x2048.Idx, P0 a = x (rowAt tb htb a))
    (h1 : ∀ a : S2048x8192.Idx, P1 a = W (ix2 (⟨(a 1).val, (a 1).isLt⟩ : Fin 8192) (⟨(a 0).val, (a 0).isLt⟩ : Fin 2048)))
    (h2 : ∀ a : S1x8192.Idx, P2 a = wb (ix1 (⟨(a 1).val, (a 1).isLt⟩ : Fin 8192)))
    (h3 : ∀ a : S1x8192.Idx, P3 a = r (ix1 (⟨(a 1).val, (a 1).isLt⟩ : Fin 8192)))
    (h4 : ∀ a : S64x2048.Idx, P4 a = h (rowAt tb htb a))
    (h5 : ∀ a : S64x2048.Idx, P5 a = m (rowAt tb htb a))
    (h6 : ∀ a : S64x2048.Idx, P6 a = c (rowAt tb htb a)) :
    E9 (F := Ideal) P0 P1 P2 P3 P4 P5 P6 y = stepC x c h m W wb r (rowAt tb htb y) := by
  simp only [E9, matmul_read, h0, h1, h2, h3, h4, h5, h6]
  rfl

/-- The new-normalizer block (its last load is the `n` block). -/
theorem E10_step (y : S64x2048.Idx)
    (h0 : ∀ a : S64x2048.Idx, P0 a = x (rowAt tb htb a))
    (h1 : ∀ a : S2048x8192.Idx, P1 a = W (ix2 (⟨(a 1).val, (a 1).isLt⟩ : Fin 8192) (⟨(a 0).val, (a 0).isLt⟩ : Fin 2048)))
    (h2 : ∀ a : S1x8192.Idx, P2 a = wb (ix1 (⟨(a 1).val, (a 1).isLt⟩ : Fin 8192)))
    (h3 : ∀ a : S1x8192.Idx, P3 a = r (ix1 (⟨(a 1).val, (a 1).isLt⟩ : Fin 8192)))
    (h4 : ∀ a : S64x2048.Idx, P4 a = h (rowAt tb htb a))
    (h5 : ∀ a : S64x2048.Idx, P5 a = m (rowAt tb htb a))
    (h7 : ∀ a : S64x2048.Idx, P7 a = n (rowAt tb htb a)) :
    E10 (F := Ideal) P0 P1 P2 P3 P4 P5 P7 y = stepN x n h m W wb r (rowAt tb htb y) := by
  simp only [E10, matmul_read, h0, h1, h2, h3, h4, h5, h7]
  rfl

/-- The new-hidden block: the body's one logistic operation is the logistic function. -/
theorem E8_step (y : S64x2048.Idx)
    (h0 : ∀ a : S64x2048.Idx, P0 a = x (rowAt tb htb a))
    (h1 : ∀ a : S2048x8192.Idx, P1 a = W (ix2 (⟨(a 1).val, (a 1).isLt⟩ : Fin 8192) (⟨(a 0).val, (a 0).isLt⟩ : Fin 2048)))
    (h2 : ∀ a : S1x8192.Idx, P2 a = wb (ix1 (⟨(a 1).val, (a 1).isLt⟩ : Fin 8192)))
    (h3 : ∀ a : S1x8192.Idx, P3 a = r (ix1 (⟨(a 1).val, (a 1).isLt⟩ : Fin 8192)))
    (h4 : ∀ a : S64x2048.Idx, P4 a = h (rowAt tb htb a))
    (h5 : ∀ a : S64x2048.Idx, P5 a = m (rowAt tb htb a))
    (h6 : ∀ a : S64x2048.Idx, P6 a = c (rowAt tb htb a))
    (h7 : ∀ a : S64x2048.Idx, P7 a = n (rowAt tb htb a)) :
    E8 (F := Ideal) P0 P1 P2 P3 P4 P5 P6 P7 y = stepH x c n h m W wb r (rowAt tb htb y) := by
  simp only [E8, matmul_read, h0, h1, h2, h3, h4, h5, h6, h7]
  rfl

end Cert.KernelIdeal.Block

end
-- ==== Proof.KernelRun.lean ====
/-
  The kernel's run, read: after it the four result arrays are the four step functions of the argument arrays.

  The generated frame names what each grid point writes back (the body's result on the point's blocks) and the final
  arrays in terms of those. Point `t` of the 64 works on rows `64 t … 64 t + 63`: its `x, c, n, h, m` blocks are those
  rows of the arrays (the index maps send `t` to block `(t, 0)`, decided over the grid), its weight block is the whole
  transposed weight matrix and its bias and recurrent blocks the whole rows (block `(0, 0)`), as the host operations
  before the call left them: a change of float format (the identity here), a transposition, two reshapes of a vector to
  a one-row matrix. So the body's result there is the step functions' rows `64 t …`, and since every row lies in exactly
  one point's block, the arrays end holding the step functions.
-/
import proofs.«168680_j91147795956279_2_alg».proof.Proof.KernelStep
import Idealize.ShloMosaic.Lib.StableHlo.Run

noncomputable section

namespace Cert.KernelIdeal.Block

open Cert.KernelIdeal Cert.KernelIdeal.Gen Cert.KernelIdeal.ValueP Cert.SLstm Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 64 grid points: the row-blocked windows (`x`, `c`, `n`, `h`, `m` and the four
    results) are at block `(t, 0)`, the resident ones (weights, bias, recurrent weights) at block `(0, 0)`. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

/-- Point `t`'s 64 rows fit in the 4096. -/
theorem rowBase_le (t : Fin cfg0.N) : t.val * 64 + 64 ≤ 4096 := by
  have h : t.val < grid0.N := t.isLt
  rw [N_0] at h; omega

/-! ## The arrays the region finds, after the host operations before the call -/

/-- The `x` operand: the argument, its format changed (the identity on the extended reals). -/
theorem V_x (c : Dev nD) : (V m c main_v0 : S4096x2048.Idx → EReal) = m ((c : Thread nD τ).loc main_arg0) := by
  dsimp only [V, hostOps0]; after_results; rfl

/-- The weight operand: the argument transposed (and its format changed). -/
theorem V_W (c : Dev nD) : (V m c main_v2 : S2048x8192.Idx → EReal)
    = transpose S2048x8192 [1, 0] (m ((c : Thread nD τ).loc main_arg5)) transposes_S8192x2048_S2048x8192_1_0 := by
  dsimp only [V, hostOps0]; after_results; rfl

/-- The bias operand: the argument as a one-row matrix. -/
theorem V_wb (c : Dev nD) : (V m c main_v3 : S1x8192.Idx → EReal)
    = shapeCast S1x8192 (m ((c : Thread nD τ).loc main_arg6)) shapeCasts_S8192_S1x8192 := by
  dsimp only [V, hostOps0]; after_results; rfl

/-- The recurrent-weight operand: the argument as a one-row matrix. -/
theorem V_r (c : Dev nD) : (V m c main_v4 : S1x8192.Idx → EReal)
    = shapeCast S1x8192 (m ((c : Thread nD τ).loc main_arg7)) shapeCasts_S8192_S1x8192 := by
  dsimp only [V, hostOps0]; after_results; rfl

/-! ## The blocks are restrictions of the arrays -/

/-- Point `t`'s `x` block is rows `64 t …` of `x`. -/
theorem blk0 (c : Dev nD) (t : Fin cfg0.N) (a : S64x2048.Idx) :
    iblk m c 0 t a = (m ((c : Thread nD τ).loc main_arg0) : ShBD.Idx → EReal) (rowAt (t.val * 64) (rowBase_le t) a) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩, ⟨eA0, eA1⟩, ⟨eB0, eB1⟩⟩ := idx_facts t
  unfold iblk
  rw [View.read_apply]
  show (V m c main_v0 : S4096x2048.Idx → EReal) _ = _
  rw [V_x]
  refine congrArg _ (funext fun d => Fin.ext ?_)
  have ha0 : (a 0).val < 64 := (a 0).isLt
  have ha1 : (a 1).val < 2048 := (a 1).isLt
  match d with
  | ⟨0, _⟩ => show win0_0.index t (0 : Fin 2) * 64 + 1 * (a 0).val = t.val * 64 + (a 0).val; rw [e00]; omega
  | ⟨1, _⟩ => show win0_0.index t (1 : Fin 2) * 2048 + 1 * (a 1).val = (a 1).val; rw [e01]; omega

/-- Every point's weight block is the whole transposed weight matrix: entry `(k, j)` is `W` at `(j, k)`. -/
theorem blk1 (c : Dev nD) (t : Fin cfg0.N) (a : S2048x8192.Idx) :
    iblk m c 1 t a = (m ((c : Thread nD τ).loc main_arg5) : ShW.Idx → EReal) (ix2 (⟨(a 1).val, (a 1).isLt⟩ : Fin 8192) (⟨(a 0).val, (a 0).isLt⟩ : Fin 2048)) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩, ⟨eA0, eA1⟩, ⟨eB0, eB1⟩⟩ := idx_facts t
  unfold iblk
  rw [View.read_apply]
  show (V m c main_v2 : S2048x8192.Idx → EReal) _ = _
  rw [V_W]
  have ha0 : (a 0).val < 2048 := (a 0).isLt
  have ha1 : (a 1).val < 8192 := (a 1).isLt
  refine transpose_apply [1, 0] _ transposes_S8192x2048_S2048x8192_1_0 _ _ (fun b => ?_)
  match b with
  | ⟨0, _⟩ => show (a 0).val = win0_1.index t (0 : Fin 2) * 2048 + 1 * (a 0).val; rw [e10]; omega
  | ⟨1, _⟩ => show (a 1).val = win0_1.index t (1 : Fin 2) * 8192 + 1 * (a 1).val; rw [e11]; omega

/-- Every point's bias block is the whole bias vector, as one row. -/
theorem blk2 (c : Dev nD) (t : Fin cfg0.N) (a : S1x8192.Idx) :
    iblk m c 2 t a = (m ((c : Thread nD τ).loc main_arg6) : ShV.Idx → EReal) (ix1 (⟨(a 1).val, (a 1).isLt⟩ : Fin 8192)) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩, ⟨eA0, eA1⟩, ⟨eB0, eB1⟩⟩ := idx_facts t
  unfold iblk
  rw [View.read_apply]
  show (V m c main_v3 : S1x8192.Idx → EReal) _ = _
  rw [V_wb]
  have ha0 : (a 0).val < 1 := (a 0).isLt
  have ha1 : (a 1).val < 8192 := (a 1).isLt
  refine shapeCast_apply _ shapeCasts_S8192_S1x8192 _ _ ?_
  rw [Shape.rowMajor_val_one, Shape.rowMajor_val_two]
  show (a 1).val = (win0_2.index t (0 : Fin 2) * 1 + 1 * (a 0).val) * 8192 + (win0_2.index t (1 : Fin 2) * 8192 + 1 * (a 1).val)
  rw [e20, e21]; omega

/-- Every point's recurrent-weight block is the whole vector, as one row. -/
theorem blk3 (c : Dev nD) (t : Fin cfg0.N) (a : S1x8192.Idx) :
    iblk m c 3 t a = (m ((c : Thread nD τ).loc main_arg7) : ShV.Idx → EReal) (ix1 (⟨(a 1).val, (a 1).isLt⟩ : Fin 8192)) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩, ⟨eA0, eA1⟩, ⟨eB0, eB1⟩⟩ := idx_facts t
  unfold iblk
  rw [View.read_apply]
  show (V m c main_v4 : S1x8192.Idx → EReal) _ = _
  rw [V_r]
  have ha0 : (a 0).val < 1 := (a 0).isLt
  have ha1 : (a 1).val < 8192 := (a 1).isLt
  refine shapeCast_apply _ shapeCasts_S8192_S1x8192 _ _ ?_
  rw [Shape.rowMajor_val_one, Shape.rowMajor_val_two]
  show (a 1).val = (win0_3.index t (0 : Fin 2) * 1 + 1 * (a 0).val) * 8192 + (win0_3.index t (1 : Fin 2) * 8192 + 1 * (a 1).val)
  rw [e30, e31]; omega

/-- Point `t`'s `c` block is rows `64 t …` of `c`. -/
theorem blk4 (c : Dev nD) (t : Fin cfg0.N) (a : S64x2048.Idx) :
    iblk m c 4 t a = (m ((c : Thread nD τ).loc main_arg1) : ShBD.Idx → EReal) (rowAt (t.val * 64) (rowBase_le t) a) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩, ⟨eA0, eA1⟩, ⟨eB0, eB1⟩⟩ := idx_facts t
  unfold iblk
  rw [View.read_apply]
  show (V m c main_arg1 : S4096x2048.Idx → EReal) _ = _
  rw [V_main_arg1]
  refine congrArg _ (funext fun d => Fin.ext ?_)
  have ha0 : (a 0).val < 64 := (a 0).isLt
  have ha1 : (a 1).val < 2048 := (a 1).isLt
  match d with
  | ⟨0, _⟩ => show win0_4.index t (0 : Fin 2) * 64 + 1 * (a 0).val = t.val * 64 + (a 0).val; rw [e40]; omega
  | ⟨1, _⟩ => show win0_4.index t (1 : Fin 2) * 2048 + 1 * (a 1).val = (a 1).val; rw [e41]; omega

/-- Point `t`'s `n` block is rows `64 t …` of `n`. -/
theorem blk5 (c : Dev nD) (t : Fin cfg0.N) (a : S64x2048.Idx) :
    iblk m c 5 t a = (m ((c : Thread nD τ).loc main_arg2) : ShBD.Idx → EReal) (rowAt (t.val * 64) (rowBase_le t) a) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩, ⟨eA0, eA1⟩, ⟨eB0, eB1⟩⟩ := idx_facts t
  unfold iblk
  rw [View.read_apply]
  show (V m c main_arg2 : S4096x2048.Idx → EReal) _ = _
  rw [V_main_arg2]
  refine congrArg _ (funext fun d => Fin.ext ?_)
  have ha0 : (a 0).val < 64 := (a 0).isLt
  have ha1 : (a 1).val < 2048 := (a 1).isLt
  match d with
  | ⟨0, _⟩ => show win0_5.index t (0 : Fin 2) * 64 + 1 * (a 0).val = t.val * 64 + (a 0).val; rw [e50]; omega
  | ⟨1, _⟩ => show win0_5.index t (1 : Fin 2) * 2048 + 1 * (a 1).val = (a 1).val; rw [e51]; omega

/-- Point `t`'s `h` block is rows `64 t …` of `h`. -/
theorem blk6 (c : Dev nD) (t : Fin cfg0.N) (a : S64x2048.Idx) :
    iblk m c 6 t a = (m ((c : Thread nD τ).loc main_arg3) : ShBD.Idx → EReal) (rowAt (t.val * 64) (rowBase_le t) a) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩, ⟨eA0, eA1⟩, ⟨eB0, eB1⟩⟩ := idx_facts t
  unfold iblk
  rw [View.read_apply]
  show (V m c main_arg3 : S4096x2048.Idx → EReal) _ = _
  rw [V_main_arg3]
  refine congrArg _ (funext fun d => Fin.ext ?_)
  have ha0 : (a 0).val < 64 := (a 0).isLt
  have ha1 : (a 1).val < 2048 := (a 1).isLt
  match d with
  | ⟨0, _⟩ => show win0_6.index t (0 : Fin 2) * 64 + 1 * (a 0).val = t.val * 64 + (a 0).val; rw [e60]; omega
  | ⟨1, _⟩ => show win0_6.index t (1 : Fin 2) * 2048 + 1 * (a 1).val = (a 1).val; rw [e61]; omega

/-- Point `t`'s `m` block is rows `64 t …` of `m`. -/
theorem blk7 (c : Dev nD) (t : Fin cfg0.N) (a : S64x2048.Idx) :
    iblk m c 7 t a = (m ((c : Thread nD τ).loc main_arg4) : ShBD.Idx → EReal) (rowAt (t.val * 64) (rowBase_le t) a) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩, ⟨eA0, eA1⟩, ⟨eB0, eB1⟩⟩ := idx_facts t
  unfold iblk
  rw [View.read_apply]
  show (V m c main_arg4 : S4096x2048.Idx → EReal) _ = _
  rw [V_main_arg4]
  refine congrArg _ (funext fun d => Fin.ext ?_)
  have ha0 : (a 0).val < 64 := (a 0).isLt
  have ha1 : (a 1).val < 2048 := (a 1).isLt
  match d with
  | ⟨0, _⟩ => show win0_7.index t (0 : Fin 2) * 64 + 1 * (a 0).val = t.val * 64 + (a 0).val; rw [e70]; omega
  | ⟨1, _⟩ => show win0_7.index t (1 : Fin 2) * 2048 + 1 * (a 1).val = (a 1).val; rw [e71]; omega

/-! ## Output window 8 -/

/-- WHAT POINT `t` WRITES BACK to window 8 is block `t` of the new hidden array. -/
theorem flushed8_eq (c : Dev nD) (t : Fin cfg0.N) :
    (dats m 0 c).flushed 8 t = ((cfg0.win 8).blk t).view.read (Elt Ideal) (stepH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩, ⟨eA0, eA1⟩, ⟨eB0, eB1⟩⟩ := idx_facts t
  rw [flushed8]
  unfold out0_8
  simp only [View.ld_unit_zero (S := S64x2048) hz, View.ld_unit_zero (S := S2048x8192) hz, View.ld_unit_zero (S := S1x8192) hz]
  funext y
  refine (canon8_eq (iblk m c 0 t) (iblk m c 1 t) (iblk m c 2 t) (iblk m c 3 t) (iblk m c 6 t) (iblk m c 7 t) (iblk m c 4 t) (iblk m c 5 t) y).trans ?_
  rw [E8_step (iblk m c 0 t) (iblk m c 1 t) (iblk m c 2 t) (iblk m c 3 t) (iblk m c 6 t) (iblk m c 7 t) (iblk m c 4 t) (iblk m c 5 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (t.val * 64) (rowBase_le t) y
    (blk0 m c t) (blk1 m c t) (blk2 m c t) (blk3 m c t) (blk6 m c t) (blk7 m c t) (blk4 m c t) (blk5 m c t), View.read_apply]
  refine congrArg _ (funext fun d => Fin.ext ?_)
  have hy0 : (y 0).val < 64 := (y 0).isLt
  have hy1 : (y 1).val < 2048 := (y 1).isLt
  match d with
  | ⟨0, _⟩ => show t.val * 64 + (y 0).val = win0_8.index t (0 : Fin 2) * 64 + 1 * (y 0).val; rw [e80]; omega
  | ⟨1, _⟩ => show (y 1).val = win0_8.index t (1 : Fin 2) * 2048 + 1 * (y 1).val; rw [e81]; omega

/-- An index of the array is in point `t`'s block iff each coordinate is in the block's range on its axis. -/
theorem mem_blk8 (t : Fin cfg0.N) (i : S4096x2048.Idx) :
    i ∈ ((cfg0.win 8).blk t).view.set ↔ ∀ a : Fin 2, win0_8.index t a * S64x2048.size a ≤ (i a).val ∧ (i a).val < win0_8.index t a * S64x2048.size a + S64x2048.size a := by
  show i ∈ ((View.whole main_v5_0).slice (win0_8.rect t)).set ↔ _
  rw [View.set_slice_whole, Rect.mem_set_unit]
  exact Iff.rfl

/-- Every row lies in one point's block: row `b` in that of point `b / 64`. -/
theorem cover8 (i : S4096x2048.Idx) :
    ∃ t : Fin cfg0.N, (cfg0.win 8).flush t = true ∧ i ∈ ((cfg0.win 8).blk t).view.set := by
  have hi0 : (i 0).val < 4096 := (i 0).isLt
  have hi1 : (i 1).val < 2048 := (i 1).isLt
  have ht : (i 0).val / 64 < cfg0.N := by show _ < grid0.N; rw [N_0]; omega
  refine ⟨⟨(i 0).val / 64, ht⟩, flush0_8 _, ?_⟩
  rw [mem_blk8]
  obtain ⟨e0, e1⟩ := (idx_facts ⟨(i 0).val / 64, ht⟩).2.2.2.2.2.2.2.2.1
  intro a
  match a with
  | ⟨0, _⟩ =>
    show win0_8.index ⟨(i 0).val / 64, ht⟩ (0 : Fin 2) * 64 ≤ (i 0).val ∧ (i 0).val < win0_8.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_8.index ⟨(i 0).val / 64, ht⟩ (1 : Fin 2) * 2048 ≤ (i 1).val ∧ (i 1).val < win0_8.index ⟨(i 0).val / 64, ht⟩ (1 : Fin 2) * 2048 + 2048
    rw [e1]; omega

/-- THE ARRAY after the run is the new hidden array. -/
theorem final8 (c : Dev nD) : (dats m 0 c).arrAt 8 cfg0.N = stepH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 8 (stepH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed8_eq m c t) cover8

/-! ## Output window 9 -/

/-- WHAT POINT `t` WRITES BACK to window 9 is block `t` of the new cell array. -/
theorem flushed9_eq (c : Dev nD) (t : Fin cfg0.N) :
    (dats m 0 c).flushed 9 t = ((cfg0.win 9).blk t).view.read (Elt Ideal) (stepC (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩, ⟨eA0, eA1⟩, ⟨eB0, eB1⟩⟩ := idx_facts t
  rw [flushed9]
  unfold out0_9
  simp only [View.ld_unit_zero (S := S64x2048) hz, View.ld_unit_zero (S := S2048x8192) hz, View.ld_unit_zero (S := S1x8192) hz]
  funext y
  refine (canon9_eq (iblk m c 0 t) (iblk m c 1 t) (iblk m c 2 t) (iblk m c 3 t) (iblk m c 6 t) (iblk m c 7 t) (iblk m c 4 t) y).trans ?_
  rw [E9_step (iblk m c 0 t) (iblk m c 1 t) (iblk m c 2 t) (iblk m c 3 t) (iblk m c 6 t) (iblk m c 7 t) (iblk m c 4 t) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (t.val * 64) (rowBase_le t) y
    (blk0 m c t) (blk1 m c t) (blk2 m c t) (blk3 m c t) (blk6 m c t) (blk7 m c t) (blk4 m c t), View.read_apply]
  refine congrArg _ (funext fun d => Fin.ext ?_)
  have hy0 : (y 0).val < 64 := (y 0).isLt
  have hy1 : (y 1).val < 2048 := (y 1).isLt
  match d with
  | ⟨0, _⟩ => show t.val * 64 + (y 0).val = win0_9.index t (0 : Fin 2) * 64 + 1 * (y 0).val; rw [e90]; omega
  | ⟨1, _⟩ => show (y 1).val = win0_9.index t (1 : Fin 2) * 2048 + 1 * (y 1).val; rw [e91]; omega

/-- An index of the array is in point `t`'s block iff each coordinate is in the block's range on its axis. -/
theorem mem_blk9 (t : Fin cfg0.N) (i : S4096x2048.Idx) :
    i ∈ ((cfg0.win 9).blk t).view.set ↔ ∀ a : Fin 2, win0_9.index t a * S64x2048.size a ≤ (i a).val ∧ (i a).val < win0_9.index t a * S64x2048.size a + S64x2048.size a := by
  show i ∈ ((View.whole main_v5_1).slice (win0_9.rect t)).set ↔ _
  rw [View.set_slice_whole, Rect.mem_set_unit]
  exact Iff.rfl

/-- Every row lies in one point's block: row `b` in that of point `b / 64`. -/
theorem cover9 (i : S4096x2048.Idx) :
    ∃ t : Fin cfg0.N, (cfg0.win 9).flush t = true ∧ i ∈ ((cfg0.win 9).blk t).view.set := by
  have hi0 : (i 0).val < 4096 := (i 0).isLt
  have hi1 : (i 1).val < 2048 := (i 1).isLt
  have ht : (i 0).val / 64 < cfg0.N := by show _ < grid0.N; rw [N_0]; omega
  refine ⟨⟨(i 0).val / 64, ht⟩, flush0_9 _, ?_⟩
  rw [mem_blk9]
  obtain ⟨e0, e1⟩ := (idx_facts ⟨(i 0).val / 64, ht⟩).2.2.2.2.2.2.2.2.2.1
  intro a
  match a with
  | ⟨0, _⟩ =>
    show win0_9.index ⟨(i 0).val / 64, ht⟩ (0 : Fin 2) * 64 ≤ (i 0).val ∧ (i 0).val < win0_9.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_9.index ⟨(i 0).val / 64, ht⟩ (1 : Fin 2) * 2048 ≤ (i 1).val ∧ (i 1).val < win0_9.index ⟨(i 0).val / 64, ht⟩ (1 : Fin 2) * 2048 + 2048
    rw [e1]; omega

/-- THE ARRAY after the run is the new cell array. -/
theorem final9 (c : Dev nD) : (dats m 0 c).arrAt 9 cfg0.N = stepC (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 9 (stepC (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed9_eq m c t) cover9

/-! ## Output window 10 -/

/-- WHAT POINT `t` WRITES BACK to window 10 is block `t` of the new normalizer array. -/
theorem flushed10_eq (c : Dev nD) (t : Fin cfg0.N) :
    (dats m 0 c).flushed 10 t = ((cfg0.win 10).blk t).view.read (Elt Ideal) (stepN (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩, ⟨eA0, eA1⟩, ⟨eB0, eB1⟩⟩ := idx_facts t
  rw [flushed10]
  unfold out0_10
  simp only [View.ld_unit_zero (S := S64x2048) hz, View.ld_unit_zero (S := S2048x8192) hz, View.ld_unit_zero (S := S1x8192) hz]
  funext y
  refine (canon10_eq (iblk m c 0 t) (iblk m c 1 t) (iblk m c 2 t) (iblk m c 3 t) (iblk m c 6 t) (iblk m c 7 t) (iblk m c 5 t) y).trans ?_
  rw [E10_step (iblk m c 0 t) (iblk m c 1 t) (iblk m c 2 t) (iblk m c 3 t) (iblk m c 6 t) (iblk m c 7 t) (iblk m c 5 t) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (t.val * 64) (rowBase_le t) y
    (blk0 m c t) (blk1 m c t) (blk2 m c t) (blk3 m c t) (blk6 m c t) (blk7 m c t) (blk5 m c t), View.read_apply]
  refine congrArg _ (funext fun d => Fin.ext ?_)
  have hy0 : (y 0).val < 64 := (y 0).isLt
  have hy1 : (y 1).val < 2048 := (y 1).isLt
  match d with
  | ⟨0, _⟩ => show t.val * 64 + (y 0).val = win0_10.index t (0 : Fin 2) * 64 + 1 * (y 0).val; rw [eA0]; omega
  | ⟨1, _⟩ => show (y 1).val = win0_10.index t (1 : Fin 2) * 2048 + 1 * (y 1).val; rw [eA1]; omega

/-- An index of the array is in point `t`'s block iff each coordinate is in the block's range on its axis. -/
theorem mem_blk10 (t : Fin cfg0.N) (i : S4096x2048.Idx) :
    i ∈ ((cfg0.win 10).blk t).view.set ↔ ∀ a : Fin 2, win0_10.index t a * S64x2048.size a ≤ (i a).val ∧ (i a).val < win0_10.index t a * S64x2048.size a + S64x2048.size a := by
  show i ∈ ((View.whole main_v5_2).slice (win0_10.rect t)).set ↔ _
  rw [View.set_slice_whole, Rect.mem_set_unit]
  exact Iff.rfl

/-- Every row lies in one point's block: row `b` in that of point `b / 64`. -/
theorem cover10 (i : S4096x2048.Idx) :
    ∃ t : Fin cfg0.N, (cfg0.win 10).flush t = true ∧ i ∈ ((cfg0.win 10).blk t).view.set := by
  have hi0 : (i 0).val < 4096 := (i 0).isLt
  have hi1 : (i 1).val < 2048 := (i 1).isLt
  have ht : (i 0).val / 64 < cfg0.N := by show _ < grid0.N; rw [N_0]; omega
  refine ⟨⟨(i 0).val / 64, ht⟩, flush0_10 _, ?_⟩
  rw [mem_blk10]
  obtain ⟨e0, e1⟩ := (idx_facts ⟨(i 0).val / 64, ht⟩).2.2.2.2.2.2.2.2.2.2.1
  intro a
  match a with
  | ⟨0, _⟩ =>
    show win0_10.index ⟨(i 0).val / 64, ht⟩ (0 : Fin 2) * 64 ≤ (i 0).val ∧ (i 0).val < win0_10.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_10.index ⟨(i 0).val / 64, ht⟩ (1 : Fin 2) * 2048 ≤ (i 1).val ∧ (i 1).val < win0_10.index ⟨(i 0).val / 64, ht⟩ (1 : Fin 2) * 2048 + 2048
    rw [e1]; omega

/-- THE ARRAY after the run is the new normalizer array. -/
theorem final10 (c : Dev nD) : (dats m 0 c).arrAt 10 cfg0.N = stepN (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 10 (stepN (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed10_eq m c t) cover10

/-! ## Output window 11 -/

/-- WHAT POINT `t` WRITES BACK to window 11 is block `t` of the new stabilizer array. -/
theorem flushed11_eq (c : Dev nD) (t : Fin cfg0.N) :
    (dats m 0 c).flushed 11 t = ((cfg0.win 11).blk t).view.read (Elt Ideal) (stepM (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) := by
  obtain ⟨⟨e00, e01⟩, ⟨e10, e11⟩, ⟨e20, e21⟩, ⟨e30, e31⟩, ⟨e40, e41⟩, ⟨e50, e51⟩, ⟨e60, e61⟩, ⟨e70, e71⟩, ⟨e80, e81⟩, ⟨e90, e91⟩, ⟨eA0, eA1⟩, ⟨eB0, eB1⟩⟩ := idx_facts t
  rw [flushed11]
  unfold out0_11
  simp only [View.ld_unit_zero (S := S64x2048) hz, View.ld_unit_zero (S := S2048x8192) hz, View.ld_unit_zero (S := S1x8192) hz]
  funext y
  refine (canon11_eq (iblk m c 0 t) (iblk m c 1 t) (iblk m c 2 t) (iblk m c 3 t) (iblk m c 6 t) (iblk m c 7 t) y).trans ?_
  rw [E11_step (iblk m c 0 t) (iblk m c 1 t) (iblk m c 2 t) (iblk m c 3 t) (iblk m c 6 t) (iblk m c 7 t) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (t.val * 64) (rowBase_le t) y
    (blk0 m c t) (blk1 m c t) (blk2 m c t) (blk3 m c t) (blk6 m c t) (blk7 m c t), View.read_apply]
  refine congrArg _ (funext fun d => Fin.ext ?_)
  have hy0 : (y 0).val < 64 := (y 0).isLt
  have hy1 : (y 1).val < 2048 := (y 1).isLt
  match d with
  | ⟨0, _⟩ => show t.val * 64 + (y 0).val = win0_11.index t (0 : Fin 2) * 64 + 1 * (y 0).val; rw [eB0]; omega
  | ⟨1, _⟩ => show (y 1).val = win0_11.index t (1 : Fin 2) * 2048 + 1 * (y 1).val; rw [eB1]; omega

/-- An index of the array is in point `t`'s block iff each coordinate is in the block's range on its axis. -/
theorem mem_blk11 (t : Fin cfg0.N) (i : S4096x2048.Idx) :
    i ∈ ((cfg0.win 11).blk t).view.set ↔ ∀ a : Fin 2, win0_11.index t a * S64x2048.size a ≤ (i a).val ∧ (i a).val < win0_11.index t a * S64x2048.size a + S64x2048.size a := by
  show i ∈ ((View.whole main_v5_3).slice (win0_11.rect t)).set ↔ _
  rw [View.set_slice_whole, Rect.mem_set_unit]
  exact Iff.rfl

/-- Every row lies in one point's block: row `b` in that of point `b / 64`. -/
theorem cover11 (i : S4096x2048.Idx) :
    ∃ t : Fin cfg0.N, (cfg0.win 11).flush t = true ∧ i ∈ ((cfg0.win 11).blk t).view.set := by
  have hi0 : (i 0).val < 4096 := (i 0).isLt
  have hi1 : (i 1).val < 2048 := (i 1).isLt
  have ht : (i 0).val / 64 < cfg0.N := by show _ < grid0.N; rw [N_0]; omega
  refine ⟨⟨(i 0).val / 64, ht⟩, flush0_11 _, ?_⟩
  rw [mem_blk11]
  obtain ⟨e0, e1⟩ := (idx_facts ⟨(i 0).val / 64, ht⟩).2.2.2.2.2.2.2.2.2.2.2
  intro a
  match a with
  | ⟨0, _⟩ =>
    show win0_11.index ⟨(i 0).val / 64, ht⟩ (0 : Fin 2) * 64 ≤ (i 0).val ∧ (i 0).val < win0_11.index ⟨(i 0).val / 64, ht⟩ (0 : Fin 2) * 64 + 64
    rw [e0]; show (i 0).val / 64 * 64 ≤ (i 0).val ∧ (i 0).val < (i 0).val / 64 * 64 + 64; omega
  | ⟨1, _⟩ =>
    show win0_11.index ⟨(i 0).val / 64, ht⟩ (1 : Fin 2) * 2048 ≤ (i 1).val ∧ (i 1).val < win0_11.index ⟨(i 0).val / 64, ht⟩ (1 : Fin 2) * 2048 + 2048
    rw [e1]; omega

/-- THE ARRAY after the run is the new stabilizer array. -/
theorem final11 (c : Dev nD) : (dats m 0 c).arrAt 11 cfg0.N = stepM (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) :=
  (dats m 0 c).arrAt_eq_of_cover 11 (stepM (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed11_eq m c t) cover11

/-! ## The run, read -/

/-- Every weakly fair execution of the idealized kernel ends with the four results at the four step functions of the
    argument arrays, the arguments unchanged. -/
theorem run : θ_run defs (onTc (τ := τ) (main (F := Ideal))) ⟨m, fun _ => 0, ρ⟩ fun r => ∀ c : Dev nD,
      r.2.mem ((c : Thread nD τ).loc main_v5_0) = stepH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v5_1) = stepC (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v5_2) = stepN (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v5_3) = stepM (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c), (h c).2.1.trans (final9 m c),
      (h c).2.2.1.trans (final10 m c), (h c).2.2.2.1.trans (final11 m c), (h c).2.2.2.2⟩)
    (run_blocks m ρ)

end Cert.KernelIdeal.Block

end
-- ==== Proof.RefStep.lean ====
/-
  The reference program computes the four step functions.

  Its pre-activation matrix `x · Wᵀ + bias + r ⊙ tile(h, 4)` (one 4096 × 8192 array) read at (row, gate offset + column) is
  that gate's pre-activation: the product is the sum over the contracted axis, the bias and recurrent rows are broadcast
  down the rows, and the four-fold tiling of `h` (reshape to [1,4096,1,2048], broadcast the unit axis to 4, reshape to
  [4096,8192]) read at column `offset + q` with the offset a multiple of 2048 is `h` at column `q`. The four gate slices
  are quarters of that matrix, and everything after is pointwise, with the logistic function spelt as a quotient.
-/
import proofs.«168680_j91147795956279_2_alg».proof.Proof.Gen.ReferenceIdeal.Read
import proofs.«168680_j91147795956279_2_alg».proof.Proof.Step

noncomputable section

namespace Cert.ReferenceIdeal.RefStep

open Cert.ReferenceIdeal Cert.ReferenceIdeal.Gen Cert.ReferenceIdeal.Read Cert.SLstm Idealize.ShloMosaic Idealize.ShloMosaic.TcCoe
open Idealize.ShloMosaic.ValueIdx

variable (x0 x1 x2 x3 x4 : (⟨S4096x2048, .f32⟩ : BufTy).Contents (Elt Ideal)) (x5 : (⟨S8192x2048, .f32⟩ : BufTy).Contents (Elt Ideal))
  (x6 x7 : (⟨S8192, .f32⟩ : BufTy).Contents (Elt Ideal))

/-- The pre-activation matrix at `I = (b, off + q)` is the gate at offset `off` at `i = (b, q)`. -/
theorem gate_read (off : Nat) (hoff : off + 2048 ≤ 8192) (hm : off % 2048 = 0) (i : S4096x2048.Idx) (I : S4096x8192.Idx)
    (h0 : (I 0).val = (i 0).val) (h1 : (I 1).val = (i 1).val + off) :
    val_main_v11 (F := Ideal) x0 x3 x5 x6 x7 I = gate x0 x3 x5 x6 x7 off hoff i := by
  have hA : ∀ k : Fin 2048, lidx_main_v1 I k = ix2 (⟨(i 0).val, (i 0).isLt⟩ : Fin 4096) k := fun k => funext fun a => by
    match a with
    | ⟨0, _⟩ => exact Fin.ext h0
    | ⟨1, _⟩ => rfl
  have hB : ∀ k : Fin 2048, idx_main_v0 (ridx_main_v1 I k) = ix2 (gcol off hoff (i 1).val (i 1).isLt) k := fun k => funext fun a => by
    match a with
    | ⟨0, _⟩ => exact Fin.ext h1
    | ⟨1, _⟩ => rfl
  have hC : idx_main_v2 (idx_main_v3 I) = ix1 (gcol off hoff (i 1).val (i 1).isLt) := funext fun a => by
    match a with
    | ⟨0, _⟩ => exact Fin.ext h1
  have hD : idx_main_v8 (idx_main_v9 I) = ix1 (gcol off hoff (i 1).val (i 1).isLt) := funext fun a => by
    match a with
    | ⟨0, _⟩ => exact Fin.ext h1
  have hE : idx_main_v5 (idx_main_v6 (idx_main_v7 I)) = i := by
    funext a; apply Fin.ext
    have hI0 : (I 0).val < 4096 := (I 0).isLt
    have hI1 : (I 1).val < 8192 := (I 1).isLt
    have hi1 : (i 1).val < 2048 := (i 1).isLt
    match a with
    | ⟨0, _⟩ =>
      show ((((0 : ℕ) * 4096 + ((I 0).val * 8192 + (I 1).val) / 8192 % 4096) * 1 + 0) * 2048 + ((I 0).val * 8192 + (I 1).val) % 2048) / 2048 = (i 0).val
      omega
    | ⟨1, _⟩ =>
      show ((((0 : ℕ) * 4096 + ((I 0).val * 8192 + (I 1).val) / 8192 % 4096) * 1 + 0) * 2048 + ((I 0).val * 8192 + (I 1).val) % 2048) % 2048 = (i 1).val
      omega
  rw [val_main_v11_apply, val_main_v4_apply, val_main_v10_apply, val_main_v1_apply, val_main_v3_apply, val_main_v2_apply,
    val_main_v9_apply, val_main_v8_apply, val_main_v7_apply, val_main_v6_apply, val_main_v5_apply]
  simp only [val_main_v0_apply, hA, hB, hC, hD, hE, gate, preAct, Ideal.addf_def, Ideal.mulf_def]

/-- The z-gate slice. -/
theorem v12_read (i : S4096x2048.Idx) : val_main_v12 (F := Ideal) x0 x3 x5 x6 x7 i = gate x0 x3 x5 x6 x7 0 (by omega) i := by
  rw [val_main_v12_apply]; exact gate_read x0 x3 x5 x6 x7 0 (by omega) rfl i _ rfl rfl
/-- The i-gate slice. -/
theorem v13_read (i : S4096x2048.Idx) : val_main_v13 (F := Ideal) x0 x3 x5 x6 x7 i = gate x0 x3 x5 x6 x7 2048 (by omega) i := by
  rw [val_main_v13_apply]; exact gate_read x0 x3 x5 x6 x7 2048 (by omega) rfl i _ rfl (Nat.add_comm _ _)
/-- The f-gate slice. -/
theorem v14_read (i : S4096x2048.Idx) : val_main_v14 (F := Ideal) x0 x3 x5 x6 x7 i = gate x0 x3 x5 x6 x7 4096 (by omega) i := by
  rw [val_main_v14_apply]; exact gate_read x0 x3 x5 x6 x7 4096 (by omega) rfl i _ rfl (Nat.add_comm _ _)
/-- The o-gate slice. -/
theorem v15_read (i : S4096x2048.Idx) : val_main_v15 (F := Ideal) x0 x3 x5 x6 x7 i = gate x0 x3 x5 x6 x7 6144 (by omega) i := by
  rw [val_main_v15_apply]; exact gate_read x0 x3 x5 x6 x7 6144 (by omega) rfl i _ rfl (Nat.add_comm _ _)

/-- The reference's new stabilizer is `stepM`. -/
theorem v24_step : val_main_v24 (F := Ideal) x0 x3 x4 x5 x6 x7 = stepM x0 x3 x4 x5 x6 x7 := by
  funext i
  rw [val_main_v24_apply, val_main_v23_apply, v13_read, v14_read]
  rfl

/-- The reference's forget gate. -/
theorem v27_read (i : S4096x2048.Idx) : val_main_v27 (F := Ideal) x0 x3 x4 x5 x6 x7 i
    = fGate (gate x0 x3 x5 x6 x7 2048 (by omega) i) (gate x0 x3 x5 x6 x7 4096 (by omega) i) (x4 i) := by
  rw [val_main_v27_apply, val_main_v26_apply, val_main_v25_apply, v24_step, v14_read]
  rfl

/-- The reference's input gate. -/
theorem v29_read (i : S4096x2048.Idx) : val_main_v29 (F := Ideal) x0 x3 x4 x5 x6 x7 i
    = iGate (gate x0 x3 x5 x6 x7 2048 (by omega) i) (gate x0 x3 x5 x6 x7 4096 (by omega) i) (x4 i) := by
  rw [val_main_v29_apply, val_main_v28_apply, v24_step, v13_read]
  rfl

/-- The reference's new cell array is `stepC`. -/
theorem v32_step : val_main_v32 (F := Ideal) x0 x1 x3 x4 x5 x6 x7 = stepC x0 x1 x3 x4 x5 x6 x7 := by
  funext i
  rw [val_main_v32_apply, val_main_v30_apply, val_main_v31_apply, val_main_v16_apply, v27_read, v29_read, v12_read]
  rfl

/-- The reference's new normalizer array is `stepN`. -/
theorem v34_step : val_main_v34 (F := Ideal) x0 x2 x3 x4 x5 x6 x7 = stepN x0 x2 x3 x4 x5 x6 x7 := by
  funext i
  rw [val_main_v34_apply, val_main_v33_apply, v27_read, v29_read]
  rfl

/-- The reference's new hidden array is `stepH`: its sigmoid is the quotient `1 / (1 + exp (-o))`, which is the logistic
    function. -/
theorem v39_step : val_main_v39 (F := Ideal) x0 x1 x2 x3 x4 x5 x6 x7 = stepH x0 x1 x2 x3 x4 x5 x6 x7 := by
  funext i
  rw [val_main_v39_apply, val_main_v22_apply, val_main_v21_apply, val_main_cst_0_apply, val_main_v20_apply, val_main_v19_apply,
    val_main_cst_apply, val_main_v18_apply, val_main_v17_apply, v15_read, val_main_v38_apply, v32_step, val_main_v37_apply,
    val_main_v35_apply, v34_step, val_main_v36_apply, val_main_cst_1_apply]
  show Ideal.div (Ideal.ofBits .f32 0x3F800000#32) (Ideal.ofBits .f32 0x3F800000#32 + Ideal.exp (-(gate x0 x3 x5 x6 x7 6144 (by omega) i)))
      * Ideal.div (stepC x0 x1 x3 x4 x5 x6 x7 i) (FloatOps.absf (F := Ideal) (φ := .f32) (stepN x0 x2 x3 x4 x5 x6 x7 i) + eps) = _
  rw [logistic_spelt]
  rfl

end Cert.ReferenceIdeal.RefStep

end
-- ==== Proof.lean ====
/-
  One step of an sLSTM cell as a fused kernel, against its plain array program, on the extended reals.

  Both programs compute, at batch row `b` and hidden column `q`, the four gate pre-activations
  `Σ_k x[b,k] · W[g·2048 + q, k] + W_b[g·2048 + q] + r[g·2048 + q] · h[b,q]` (g = z, i, f, o) and from them
  `m' = max (f + m) i`, `c' = exp (f + m − m') · c + exp (i − m') · tanh z`, `n' = exp (f + m − m') · n + exp (i − m')`,
  `h' = σ(o) · (c' / (|n'| + ε))`, returning (h', c', n', m').

  The kernel works on 64 rows per grid point: it multiplies the row block of `x` by the whole transposed weight matrix
  (a sum over the contracted axis on the extended reals, whatever the operands' float format), slices the four gate
  quarters of the product and of the bias and recurrent rows, and applies the pointwise tail with the logistic function
  as one operation. The array program multiplies all 4096 rows at once, tiles `h` four times along the columns, slices
  the gate quarters of the sum, and spells the logistic function as the quotient `1 / (1 + exp (−o))`, which is that
  function's definition on the extended reals. The two are therefore the same function of the arguments, term by term,
  with the sums grouped the same way; no law that fails at an infinity is used, so the finiteness of the inputs is never
  opened.

  Modules: `Cell` (the scalar cell functions), `Step` (the four whole-array step functions), `RefStep` (the array
  program's results are the step functions), `KernelCell` and `KernelStep` (one grid point computes the step functions
  on its rows), `KernelRun` (the blocks tile the arrays, so the kernel's run ends at the step functions). Here: the
  claim's five parts.
-/
import proofs.«168680_j91147795956279_2_alg».proof.Defs
import proofs.«168680_j91147795956279_2_alg».proof.Proof.Gen.Kernel
import proofs.«168680_j91147795956279_2_alg».proof.Proof.Gen.Kernel.Skeleton
import proofs.«168680_j91147795956279_2_alg».proof.Proof.Gen.Kernel.Launch
import proofs.«168680_j91147795956279_2_alg».proof.Proof.Gen.Kernel.Points
import proofs.«168680_j91147795956279_2_alg».proof.Proof.Gen.Kernel.Frame
import proofs.«168680_j91147795956279_2_alg».proof.Proof.Gen.KernelIdeal
import proofs.«168680_j91147795956279_2_alg».proof.Proof.Gen.KernelIdeal.Skeleton
import proofs.«168680_j91147795956279_2_alg».proof.Proof.Gen.KernelIdeal.Launch
import proofs.«168680_j91147795956279_2_alg».proof.Proof.Gen.KernelIdeal.Points
import proofs.«168680_j91147795956279_2_alg».proof.Proof.Gen.KernelIdeal.Frame
import proofs.«168680_j91147795956279_2_alg».proof.Proof.Gen.ReferenceIdeal
import proofs.«168680_j91147795956279_2_alg».proof.Proof.Gen.ReferenceIdeal.Run
import proofs.«168680_j91147795956279_2_alg».proof.Proof.Gen.ReferenceIdeal.Read
import proofs.«168680_j91147795956279_2_alg».proof.Proof.Gen.Pre_finite_inputs
import proofs.«168680_j91147795956279_2_alg».proof.Proof.KernelRun
import proofs.«168680_j91147795956279_2_alg».proof.Proof.RefStep
import Idealize.ShloMosaic.Adequacy
import Idealize.ShloMosaic.Init

noncomputable section

namespace Cert.Proof

open Idealize.ShloMosaic Idealize.ShloMosaic.TcCoe Idealize.SL.Sem Cert.SLstm

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the array program: its run, with the four results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- The idealization rewrote no operation, so there is nothing to preserve. -/
theorem preserves : Cert.preserves_Kernel_KernelIdeal := trivial

/-- From memories that agree on the arguments both programs end with the four step functions of those arguments. -/
theorem algebraic : Cert.algebraic_KernelIdeal_ReferenceIdeal := by
  intro m ρ m' ρ' _ hagree
  refine ⟨fun c => stepH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => stepC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => stepN (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => stepM (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Block.run m ρ, ?_⟩
  refine (θ_run Cert.ReferenceIdeal.defs _ _).mono (fun _ h c => ?_) (Cert.ReferenceIdeal.Value.run (F := Ideal) m' ρ')
  obtain ⟨g0, g1, g2, g3, g4, g5, g6, g7⟩ := hagree c
  refine ⟨?_, ?_, ?_, ?_, (h c).2.2.2.2⟩
  · rw [(h c).1, Cert.ReferenceIdeal.Read.val_main_v39_eq, Cert.ReferenceIdeal.RefStep.v39_step, g0, g1, g2, g3, g4, g5, g6, g7]
  · rw [(h c).2.1, Cert.ReferenceIdeal.Read.val_main_v32_eq, Cert.ReferenceIdeal.RefStep.v32_step, g0, g1, g3, g4, g5, g6, g7]
  · rw [(h c).2.2.1, Cert.ReferenceIdeal.Read.val_main_v34_eq, Cert.ReferenceIdeal.RefStep.v34_step, g0, g2, g3, g4, g5, g6, g7]
  · rw [(h c).2.2.2.1, Cert.ReferenceIdeal.Read.val_main_v24_eq, Cert.ReferenceIdeal.RefStep.v24_step, g0, g3, g4, g5, g6, g7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
